-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S2x3200000 : Shape := ⟨2, ![2, 3200000]⟩
abbrev S16x14 : Shape := ⟨2, ![16, 14]⟩
abbrev S16 : Shape := ⟨1, ![16]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S16x14 : S_.BroadcastsInDim S16x14 (![] : Fin 0 → Fin S16x14.rank)
  reducesTo_S16x14_S_d0_1 : S16x14.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S100000x14 .f32) (main_arg1 : IVec S2x3200000 32) (main_arg2 : FVec F S16x14 .f32) (main_arg3 : FVec F S16 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S16x14 .f32 := Host.absf main_arg2
  let main_cst_0 : FVec F S_ .f32 := constant S_ .f32 0x7F800000#32
  let main_v5 : FVec F S16x14 .f32 := broadcastInDim S16x14 ![] bcast_S_S16x14 main_cst_0
  let main_v6 : IVec S16x14 1 := cmpf .olt main_v4 main_v5
  let main_c_1 : IVec S_ 1 := constantI S_ 1 1#1
  let main_v7 : IVec S_ 1 := (fun x v => Host.reduce IntOp.andi x v reducesTo_S16x14_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S100000x14 : Shape := ⟨2, ![100000, 14]⟩
abbrev S2x3200000 : Shape := ⟨2, ![2, 3200000]⟩
abbrev S16x14 : Shape := ⟨2, ![16, 14]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x14 : Shape := ⟨2, ![3300000, 14]⟩
abbrev S13200x14 : Shape := ⟨2, ![13200, 14]⟩
abbrev S13200x1 : Shape := ⟨2, ![13200, 1]⟩
abbrev S1x16 : Shape := ⟨2, ![1, 16]⟩
abbrev S100000x16 : Shape := ⟨2, ![100000, 16]⟩
abbrev S4000x14 : Shape := ⟨2, ![4000, 14]⟩
abbrev S4000x16 : Shape := ⟨2, ![4000, 16]⟩
abbrev S14x16 : Shape := ⟨2, ![14, 16]⟩

abbrev nBuf : Space → Nat
  | .hbm => 75
  | .vmem => 18
  | .smem => 0
  | _ => 0

abbrev bufTy : (tb : Table) → Fin (tcTables nBuf tb) → BufTy
  | .hbm, ⟨0, _⟩ => ⟨S100000x14, .f32⟩
  | .hbm, ⟨1, _⟩ => ⟨S2x3200000, .i32⟩
  | .hbm, ⟨2, _⟩ => ⟨S16x14, .f32⟩
  | .hbm, ⟨3, _⟩ => ⟨S16, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S3300000x1, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x14, .f32⟩
  | .hbm, ⟨54, _⟩ => ⟨S3300000x14, .f32⟩
  | .hbm, ⟨55, _⟩ => ⟨S_, .f32⟩
  | .hbm, ⟨56, _⟩ => ⟨S100000x14, .f32⟩
  | .hbm, ⟨57, _⟩ => ⟨S3300000x1, .i32⟩
  | .hbm, ⟨58, _⟩ => ⟨S100000x14, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x14, .f32⟩
  | .hbm, ⟨68, _⟩ => ⟨S3300000x14, .f32⟩
  | .hbm, ⟨69, _⟩ => ⟨S_, .f32⟩
  | .hbm, ⟨70, _⟩ => ⟨S100000x14, .f32⟩
  | .hbm, ⟨71, _⟩ => ⟨S3300000x1, .i32⟩
  | .hbm, ⟨72, _⟩ => ⟨S100000x14, .f32⟩
  | .hbm, ⟨73, _⟩ => ⟨S1x16, .f32⟩
  | .hbm, ⟨74, _⟩ => ⟨S100000x16, .f32⟩
  | .local _ .vmem, ⟨0, _⟩ => ⟨S13200x14, .f32⟩
  | .local _ .vmem, ⟨1, _⟩ => ⟨S13200x14, .f32⟩
  | .local _ .vmem, ⟨2, _⟩ => ⟨S13200x1, .f32⟩
  | .local _ .vmem, ⟨3, _⟩ => ⟨S13200x1, .f32⟩
  | .local _ .vmem, ⟨4, _⟩ => ⟨S13200x14, .f32⟩
  | .local _ .vmem, ⟨5, _⟩ => ⟨S13200x14, .f32⟩
  | .local _ .vmem, ⟨6, _⟩ => ⟨S13200x14, .f32⟩
  | .local _ .vmem, ⟨7, _⟩ => ⟨S13200x14, .f32⟩
  | .local _ .vmem, ⟨8, _⟩ => ⟨S13200x1, .f32⟩
  | .local _ .vmem, ⟨9, _⟩ => ⟨S13200x1, .f32⟩
  | .local _ .vmem, ⟨10, _⟩ => ⟨S13200x14, .f32⟩
  | .local _ .vmem, ⟨11, _⟩ => ⟨S13200x14, .f32⟩
  | .local _ .vmem, ⟨12, _⟩ => ⟨S4000x14, .f32⟩
  | .local _ .vmem, ⟨13, _⟩ => ⟨S4000x14, .f32⟩
  | .local _ .vmem, ⟨14, _⟩ => ⟨S16x14, .f32⟩
  | .local _ .vmem, ⟨15, _⟩ => ⟨S1x16, .f32⟩
  | .local _ .vmem, ⟨16, _⟩ => ⟨S4000x16, .f32⟩
  | .local _ .vmem, ⟨17, _⟩ => ⟨S4000x16, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S13200x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S13200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S13200x14 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S13200x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S13200x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S13200x14 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x14 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x14 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  inb_S13200x14_S13200x14_0_0 : ∀ a, (![0, 0] : Fin 2 → Nat) a + S13200x14.size a ≤ S13200x14.size a
  h_S13200x14 : 0 < S13200x14.numel
  shapeCasts_S13200x14_S13200x14 : S13200x14.ShapeCasts S13200x14
  inb_S13200x1_S13200x1_0_0 : ∀ a, (![0, 0] : Fin 2 → Nat) a + S13200x1.size a ≤ S13200x1.size a
  h_S13200x1 : 0 < S13200x1.numel
  shapeCasts_S13200x1_S13200x1 : S13200x1.ShapeCasts S13200x1
  broadcasts_S13200x1_S13200x14 : S13200x1.Broadcasts S13200x14
  bcast_S_S100000x14 : S_.BroadcastsInDim S100000x14 (![] : Fin 0 → Fin S100000x14.rank)
  shapeCasts_S16_S1x16 : S16.ShapeCasts S1x16
  inb_S4000x14_S4000x14_0_0 : ∀ a, (![0, 0] : Fin 2 → Nat) a + S4000x14.size a ≤ S4000x14.size a
  h_S4000x14 : 0 < S4000x14.numel
  shapeCasts_S4000x14_S4000x14 : S4000x14.ShapeCasts S4000x14
  bitsLt_bf16_f32 : FTy.bits .bf16 < FTy.bits .f32
  inb_S16x14_S16x14_0_0 : ∀ a, (![0, 0] : Fin 2 → Nat) a + S16x14.size a ≤ S16x14.size a
  h_S16x14 : 0 < S16x14.numel
  transposes_S16x14_p1_0_S14x16 : S16x14.Transposes [1, 0] S14x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x14_S3300000x1_S3300000x14_1_0_n_n_0_1_114_wf : GatherDims.WF S100000x14 S3300000x1 S3300000x14 [1] [0] [] [0] [] 1 ![1, 14]
  scatter_S100000x14_S3300000x1_S3300000x14_1_0_0_1_wf : ScatterDims.WF S100000x14 S3300000x1 S3300000x14 [1] [0] [0] 1
  dot_S4000x14_S14x16_S4000x16_1_0_0_1_n_n_wf : DotDims.WF S4000x14 S14x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S13200x14.size a ≤ S3300000x14.size a
  hwx0_0 : ∀ i : grid0.Coords, EltTy.bits .f32 = 32 ∨ (Rect.block (s := S3300000x14) S13200x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S13200x1.size a ≤ S3300000x1.size a
  hwx0_1 : ∀ i : grid0.Coords, EltTy.bits .f32 = 32 ∨ (Rect.block (s := S3300000x1) S13200x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S13200x14.size a ≤ S3300000x14.size a
  hwx0_2 : ∀ i : grid0.Coords, EltTy.bits .f32 = 32 ∨ (Rect.block (s := S3300000x14) S13200x14.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S13200x14.size a ≤ S3300000x14.size a
  hwx1_0 : ∀ i : grid1.Coords, EltTy.bits .f32 = 32 ∨ (Rect.block (s := S3300000x14) S13200x14.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S13200x1.size a ≤ S3300000x1.size a
  hwx1_1 : ∀ i : grid1.Coords, EltTy.bits .f32 = 32 ∨ (Rect.block (s := S3300000x1) S13200x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S13200x14.size a ≤ S3300000x14.size a
  hwx1_2 : ∀ i : grid1.Coords, EltTy.bits .f32 = 32 ∨ (Rect.block (s := S3300000x14) S13200x14.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x14.size a ≤ S100000x14.size a
  hwx2_0 : ∀ i : grid2.Coords, EltTy.bits .f32 = 32 ∨ (Rect.block (s := S100000x14) S4000x14.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x14.size a ≤ S16x14.size a
  hwx2_1 : ∀ i : grid2.Coords, EltTy.bits .f32 = 32 ∨ (Rect.block (s := S16x14) S16x14.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x16.size a ≤ S100000x16.size a
  hwx2_3 : ∀ i : grid2.Coords, EltTy.bits .f32 = 32 ∨ (Rect.block (s := S100000x16) S4000x16.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x14_S3300000x1_S3300000x14_1_0_n_n_0_1_114 : GatherDims S100000x14 S3300000x1 S3300000x14 where
  offsetDims := [1]
  collapsedSliceDims := [0]
  operandBatchingDims := []
  startIndicesBatchingDims := []
  startIndexMap := [0]
  indexVectorDim := 1
  sliceSizes := ![1, 14]
  wf := gather_S100000x14_S3300000x1_S3300000x14_1_0_n_n_0_1_114_wf
def scatter_S100000x14_S3300000x1_S3300000x14_1_0_0_1 : ScatterDims S100000x14 S3300000x1 S3300000x14 where
  updateWindowDims := [1]
  insertedWindowDims := [0]
  scatterDimsToOperandDims := [0]
  indexVectorDim := 1
  wf := scatter_S100000x14_S3300000x1_S3300000x14_1_0_0_1_wf
def dot_S4000x14_S14x16_S4000x16_1_0_0_1_n_n : DotDims S4000x14 S14x16 S4000x16 where
  lhsContracting := [1]
  rhsContracting := [0]
  lhsNonContracting := [0]
  rhsNonContracting := [1]
  lhsBatch := []
  rhsBatch := []
  wf := dot_S4000x14_S14x16_S4000x16_1_0_0_1_n_n_wf

abbrev win0_0 : Pipeline.Window sig grid0 :=
  Pipeline.Window.ofSpec (Memref.whole main_v37) S13200x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S13200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S13200x14.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S13200x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S13200x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S13200x14.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S4000x14.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S16x14.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S4000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x14 : Shape := ⟨2, ![100000, 14]⟩
abbrev S2x3200000 : Shape := ⟨2, ![2, 3200000]⟩
abbrev S16x14 : Shape := ⟨2, ![16, 14]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x14 : Shape := ⟨2, ![3300000, 14]⟩
abbrev S14x16 : Shape := ⟨2, ![14, 16]⟩
abbrev S100000x16 : Shape := ⟨2, ![100000, 16]⟩
abbrev S1x16 : Shape := ⟨2, ![1, 16]⟩

abbrev nBuf : Space → Nat
  | .hbm => 81
  | .vmem => 0
  | .smem => 0
  | _ => 0

abbrev bufTy : (tb : Table) → Fin (tcTables nBuf tb) → BufTy
  | .hbm, ⟨0, _⟩ => ⟨S100000x14, .f32⟩
  | .hbm, ⟨1, _⟩ => ⟨S2x3200000, .i32⟩
  | .hbm, ⟨2, _⟩ => ⟨S16x14, .f32⟩
  | .hbm, ⟨3, _⟩ => ⟨S16, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S3300000x1, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x14, .f32⟩
  | .hbm, ⟨54, _⟩ => ⟨S3300000x14, .f32⟩
  | .hbm, ⟨55, _⟩ => ⟨S3300000x14, .f32⟩
  | .hbm, ⟨56, _⟩ => ⟨S_, .f32⟩
  | .hbm, ⟨57, _⟩ => ⟨S100000x14, .f32⟩
  | .hbm, ⟨58, _⟩ => ⟨S3300000x1, .i32⟩
  | .hbm, ⟨59, _⟩ => ⟨S100000x14, .f32⟩
  | .hbm, ⟨60, _⟩ => ⟨S3300000x1, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x14, .f32⟩
  | .hbm, ⟨70, _⟩ => ⟨S3300000x14, .f32⟩
  | .hbm, ⟨71, _⟩ => ⟨S3300000x14, .f32⟩
  | .hbm, ⟨72, _⟩ => ⟨S_, .f32⟩
  | .hbm, ⟨73, _⟩ => ⟨S100000x14, .f32⟩
  | .hbm, ⟨74, _⟩ => ⟨S3300000x1, .i32⟩
  | .hbm, ⟨75, _⟩ => ⟨S100000x14, .f32⟩
  | .hbm, ⟨76, _⟩ => ⟨S14x16, .f32⟩
  | .hbm, ⟨77, _⟩ => ⟨S100000x16, .f32⟩
  | .hbm, ⟨78, _⟩ => ⟨S1x16, .f32⟩
  | .hbm, ⟨79, _⟩ => ⟨S100000x16, .f32⟩
  | .hbm, ⟨80, _⟩ => ⟨S100000x16, .f32⟩
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x14_0_1 : S3300000x1.BroadcastsInDim S3300000x14 (![0, 1] : Fin 2 → Fin S3300000x14.rank)
  bcast_S_S100000x14 : S_.BroadcastsInDim S100000x14 (![] : Fin 0 → Fin S100000x14.rank)
  transposes_S16x14_S14x16_1_0 : S16x14.Transposes [1, 0] S14x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x14_S3300000x1_S3300000x14_1_0_n_n_0_1_114_wf : GatherDims.WF S100000x14 S3300000x1 S3300000x14 [1] [0] [] [0] [] 1 ![1, 14]
  scatter_S100000x14_S3300000x1_S3300000x14_1_0_0_1_wf : ScatterDims.WF S100000x14 S3300000x1 S3300000x14 [1] [0] [0] 1
  dot_S100000x14_S14x16_S100000x16_1_0_0_1_n_n_wf : DotDims.WF S100000x14 S14x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x14_S3300000x1_S3300000x14_1_0_n_n_0_1_114 : GatherDims S100000x14 S3300000x1 S3300000x14 where
  offsetDims := [1]
  collapsedSliceDims := [0]
  operandBatchingDims := []
  startIndicesBatchingDims := []
  startIndexMap := [0]
  indexVectorDim := 1
  sliceSizes := ![1, 14]
  wf := gather_S100000x14_S3300000x1_S3300000x14_1_0_n_n_0_1_114_wf
def scatter_S100000x14_S3300000x1_S3300000x14_1_0_0_1 : ScatterDims S100000x14 S3300000x1 S3300000x14 where
  updateWindowDims := [1]
  insertedWindowDims := [0]
  scatterDimsToOperandDims := [0]
  indexVectorDim := 1
  wf := scatter_S100000x14_S3300000x1_S3300000x14_1_0_0_1_wf
def dot_S100000x14_S14x16_S100000x16_1_0_0_1_n_n : DotDims S100000x14 S14x16 S100000x16 where
  lhsContracting := [1]
  rhsContracting := [0]
  lhsNonContracting := [0]
  rhsNonContracting := [1]
  lhsBatch := []
  rhsBatch := []
  wf := dot_S100000x14_S14x16_S100000x16_1_0_0_1_n_n_wf

class Facts : Prop extends Facts₀ where

variable [Facts]
-- ==== Proof.KernelRun.lean ====
/-
  The idealized kernel program's run, with its whole final memory read: the program is eight segments — five stretches
  of host operations and three kernel launches — and the buffer contents at each segment boundary are a fold from the
  launch memory (a host stretch applies its operations; a launch leaves its arrays at what its write-backs fold to and
  every other buffer as it was). Every weakly fair execution terminates, nothing faulting, with every buffer that
  outlives the launches at the last boundary's contents; the result buffer and the four arguments are read off that.
-/
import proofs.«135742_j84086869721200_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the launches ends at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer ends at the last boundary's contents, and the four arguments as launched. -/
theorem run : θ_run defs (onTc (τ := τ) (main (F := F))) ⟨m, fun _ => 0, ρ⟩ (fun r => ∀ c : Dev nD,
      r.2.mem ((c.tc : Thread nD τ).loc main_v54) = W8 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨h c _ (mem_uc main_v54 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)
    (run_all m ρ)

end Cert.KernelIdeal.Run

end
-- ==== Proof.ScaleValue.lean ====
/-
  The scale kernel, launched twice (once per propagation hop): over a grid of 250 points along the edge axis it
  multiplies a 13200x14 block of gathered node features by the matching 13200x1 block of edge weights, the weight
  broadcast along the 14 features. Read whole, its output array is the input array with row e scaled by weight e:
  out (e, f) = a (e, f) * n (e, 0). Each point writes block t of that one function, and the 250 blocks tile the
  3300000 rows, so the array after the launch is that function of the two input arrays as the launch finds them.
-/
import proofs.«135742_j84086869721200_2_alg».proof.Proof.Gen.KernelIdeal.Frame
import Idealize.ShloMosaic.Lib.Pipeline.Value
import Idealize.ShloMosaic.Lib.ValueIdx

set_option maxRecDepth 16384

noncomputable section

namespace Cert.KernelIdeal.ScaleValue

open Cert.KernelIdeal Cert.KernelIdeal.Gen
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The column entry an entry of the 3300000x14 array is scaled by: (e, f) ↦ (e, 0). -/
abbrev colOf (i : S3300000x14.Idx) : S3300000x1.Idx := fun a => match a with
  | ⟨0, _⟩ => ⟨(i 0).val, (i 0).isLt⟩
  | ⟨1, _⟩ => ⟨0, Nat.one_pos⟩

/-- The same inside a block: (p, q) ↦ (p, 0). -/
abbrev blkCol (j : S13200x14.Idx) : S13200x1.Idx := fun a => match a with
  | ⟨0, _⟩ => ⟨(j 0).val, (j 0).isLt⟩
  | ⟨1, _⟩ => ⟨0, Nat.one_pos⟩

/-- Row e of a scaled by entry (e, 0) of the column n. -/
def scaleRows (a : S3300000x14.Idx → EReal) (n : S3300000x1.Idx → EReal) : S3300000x14.Idx → EReal :=
  fun i => a i * n (colOf i)

/-! ## The first launch (hop 1) -/

section Region0
variable (V : (c : Dev nD) → (b : Ref sig .tc) → Buf (Elt Ideal) ((c : Thread nD τ).loc b))

/-- The block's scale: entry (p, q) of the 13200x14 block times entry (p, 0) of the 13200x1 column block. -/
theorem pay0_apply (x0 : Vec Ideal S13200x14 .f32) (x1 : Vec Ideal S13200x1 .f32) (j : S13200x14.Idx) :
    k0_pay1 (F := Ideal) x0 x1 j = x0 j * x1 (blkCol j) := by
  unfold k0_pay1
  show shapeCast S13200x14 x0 shapeCasts_S13200x14_S13200x14 j
      * broadcastTo S13200x14 (shapeCast S13200x1 x1 shapeCasts_S13200x1_S13200x1) broadcasts_S13200x1_S13200x14 j = _
  rw [shapeCast_self, shapeCast_self]
  refine congrArg (x0 j * ·) (broadcastTo_apply x1 broadcasts_S13200x1_S13200x14 j (blkCol j) fun a => ?_)
  match a with
  | ⟨0, _⟩ => show (j 0).val = if (13200 : Nat) = 1 then 0 else (j 0).val; rw [if_neg (by decide)]
  | ⟨1, _⟩ => show 0 = if (1 : Nat) = 1 then 0 else (j 1).val; rw [if_pos rfl]

/-- Over the grid: the three windows move together along the edge axis, block t at block index t, and stay at
    block index 0 along the feature axis. -/
theorem idx0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the rows of the gathered features scaled by the edge weights. -/
theorem flushed0_eq (c : Dev nD) (t : Fin cfg0.N) :
    (dat0 (F := Ideal) V c).flushed 2 t
      = ((cfg0.win 2).blk t).view.read (Elt Ideal) (scaleRows (V c main_v37) (V c main_v30)) := by
  show (cfg0.win 2).cut (grid0.coords t) ((dat0 V c).after 2 t) = _
  rw [after0_2]
  unfold out0_2
  rw [View.canon_unit_zero hz]
  simp only [View.ld_unit_zero (S := S13200x14) hz, View.ld_unit_zero (S := S13200x1) hz]
  obtain ⟨e0, e1, e2, e3, e4, e5⟩ := idx0_facts t
  funext j
  show k0_pay1 (iblk0 V c 0 t) (iblk0 V c 1 t) j = scaleRows (V c main_v37) (V c main_v30) (((cfg0.win 2).blk t).view.emb j)
  refine (pay0_apply _ _ j).trans ?_
  unfold scaleRows
  refine congrArg₂ (· * ·) ?_ ?_
  · show V c main_v37 (((cfg0.win 0).blk t).view.emb j) = V c main_v37 (((cfg0.win 2).blk t).view.emb j)
    refine congrArg (V c main_v37) (funext fun a => Fin.ext ?_)
    match a with
    | ⟨0, _⟩ => show win0_0.index t (0 : Fin 2) * 13200 + 1 * (j 0).val = win0_2.index t (0 : Fin 2) * 13200 + 1 * (j 0).val; omega
    | ⟨1, _⟩ => show win0_0.index t (1 : Fin 2) * 14 + 1 * (j 1).val = win0_2.index t (1 : Fin 2) * 14 + 1 * (j 1).val; omega
  · show V c main_v30 (((cfg0.win 1).blk t).view.emb (blkCol j)) = V c main_v30 (colOf (((cfg0.win 2).blk t).view.emb j))
    refine congrArg (V c main_v30) (funext fun a => Fin.ext ?_)
    match a with
    | ⟨0, _⟩ => show win0_1.index t (0 : Fin 2) * 13200 + 1 * (j 0).val = win0_2.index t (0 : Fin 2) * 13200 + 1 * (j 0).val; omega
    | ⟨1, _⟩ => show win0_1.index t (1 : Fin 2) * 1 + 1 * 0 = 0; omega

/-- An index of the array is in point t's block iff each coordinate is in the block's range on its axis. -/
theorem mem_blk0 (t : Fin cfg0.N) (i : S3300000x14.Idx) :
    i ∈ ((cfg0.win 2).blk t).view.set ↔ ∀ a : Fin 2, win0_2.index t a * S13200x14.size a ≤ (i a).val
      ∧ (i a).val < win0_2.index t a * S13200x14.size a + S13200x14.size a := by
  show i ∈ ((View.whole main_v38).slice (win0_2.rect t)).set ↔ _
  rw [View.set_slice_whole, Rect.mem_set_unit]
  exact Iff.rfl

/-- Every edge row lies in the block of the point e / 13200. -/
theorem cover0 (i : S3300000x14.Idx) :
    ∃ t : Fin cfg0.N, (cfg0.win 2).flush t = true ∧ i ∈ ((cfg0.win 2).blk t).view.set := by
  have hi0 : (i 0).val < 3300000 := (i 0).isLt
  have hi1 : (i 1).val < 14 := (i 1).isLt
  have hN : (i 0).val / 13200 < grid0.N := by rw [N_0]; omega
  obtain ⟨e0, e1, e2, e3, e4, e5⟩ := idx0_facts ⟨(i 0).val / 13200, hN⟩
  have e4' : win0_2.index ⟨(i 0).val / 13200, hN⟩ (0 : Fin 2) = (i 0).val / 13200 := e4
  refine ⟨⟨(i 0).val / 13200, hN⟩, flush0_2 _, ?_⟩
  rw [mem_blk0]
  intro a
  match a with
  | ⟨0, _⟩ => show win0_2.index ⟨(i 0).val / 13200, hN⟩ (0 : Fin 2) * 13200 ≤ (i 0).val ∧ (i 0).val < win0_2.index ⟨(i 0).val / 13200, hN⟩ (0 : Fin 2) * 13200 + 13200; omega
  | ⟨1, _⟩ => show win0_2.index ⟨(i 0).val / 13200, hN⟩ (1 : Fin 2) * 14 ≤ (i 1).val ∧ (i 1).val < win0_2.index ⟨(i 0).val / 13200, hN⟩ (1 : Fin 2) * 14 + 14; omega

/-- The region's output array, whole: every row of the gathered features scaled by its edge weight. -/
theorem final0 (c : Dev nD) :
    (dat0 (F := Ideal) V c).arrAt 2 cfg0.N = scaleRows (V c main_v37) (V c main_v30) :=
  (dat0 V c).arrAt_eq_of_cover 2 _ (fun t _ => flushed0_eq V c t) cover0

end Region0

/-! ## The second launch (hop 2) -/

section Region1
variable (V : (c : Dev nD) → (b : Ref sig .tc) → Buf (Elt Ideal) ((c : Thread nD τ).loc b))

/-- The block's scale: entry (p, q) of the 13200x14 block times entry (p, 0) of the 13200x1 column block. -/
theorem pay1_apply (x0 : Vec Ideal S13200x14 .f32) (x1 : Vec Ideal S13200x1 .f32) (j : S13200x14.Idx) :
    k1_pay1 (F := Ideal) x0 x1 j = x0 j * x1 (blkCol j) := by
  unfold k1_pay1
  show shapeCast S13200x14 x0 shapeCasts_S13200x14_S13200x14 j
      * broadcastTo S13200x14 (shapeCast S13200x1 x1 shapeCasts_S13200x1_S13200x1) broadcasts_S13200x1_S13200x14 j = _
  rw [shapeCast_self, shapeCast_self]
  refine congrArg (x0 j * ·) (broadcastTo_apply x1 broadcasts_S13200x1_S13200x14 j (blkCol j) fun a => ?_)
  match a with
  | ⟨0, _⟩ => show (j 0).val = if (13200 : Nat) = 1 then 0 else (j 0).val; rw [if_neg (by decide)]
  | ⟨1, _⟩ => show 0 = if (1 : Nat) = 1 then 0 else (j 1).val; rw [if_pos rfl]

/-- Over the grid: the three windows move together along the edge axis, block t at block index t, and stay at
    block index 0 along the feature axis. -/
theorem idx1_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the rows of the gathered features scaled by the edge weights. -/
theorem flushed1_eq (c : Dev nD) (t : Fin cfg1.N) :
    (dat1 (F := Ideal) V c).flushed 2 t
      = ((cfg1.win 2).blk t).view.read (Elt Ideal) (scaleRows (V c main_v48) (V c main_v30)) := by
  show (cfg1.win 2).cut (grid1.coords t) ((dat1 V c).after 2 t) = _
  rw [after1_2]
  unfold out1_2
  rw [View.canon_unit_zero hz]
  simp only [View.ld_unit_zero (S := S13200x14) hz, View.ld_unit_zero (S := S13200x1) hz]
  obtain ⟨e0, e1, e2, e3, e4, e5⟩ := idx1_facts t
  funext j
  show k1_pay1 (iblk1 V c 0 t) (iblk1 V c 1 t) j = scaleRows (V c main_v48) (V c main_v30) (((cfg1.win 2).blk t).view.emb j)
  refine (pay1_apply _ _ j).trans ?_
  unfold scaleRows
  refine congrArg₂ (· * ·) ?_ ?_
  · show V c main_v48 (((cfg1.win 0).blk t).view.emb j) = V c main_v48 (((cfg1.win 2).blk t).view.emb j)
    refine congrArg (V c main_v48) (funext fun a => Fin.ext ?_)
    match a with
    | ⟨0, _⟩ => show win1_0.index t (0 : Fin 2) * 13200 + 1 * (j 0).val = win1_2.index t (0 : Fin 2) * 13200 + 1 * (j 0).val; omega
    | ⟨1, _⟩ => show win1_0.index t (1 : Fin 2) * 14 + 1 * (j 1).val = win1_2.index t (1 : Fin 2) * 14 + 1 * (j 1).val; omega
  · show V c main_v30 (((cfg1.win 1).blk t).view.emb (blkCol j)) = V c main_v30 (colOf (((cfg1.win 2).blk t).view.emb j))
    refine congrArg (V c main_v30) (funext fun a => Fin.ext ?_)
    match a with
    | ⟨0, _⟩ => show win1_1.index t (0 : Fin 2) * 13200 + 1 * (j 0).val = win1_2.index t (0 : Fin 2) * 13200 + 1 * (j 0).val; omega
    | ⟨1, _⟩ => show win1_1.index t (1 : Fin 2) * 1 + 1 * 0 = 0; omega

/-- An index of the array is in point t's block iff each coordinate is in the block's range on its axis. -/
theorem mem_blk1 (t : Fin cfg1.N) (i : S3300000x14.Idx) :
    i ∈ ((cfg1.win 2).blk t).view.set ↔ ∀ a : Fin 2, win1_2.index t a * S13200x14.size a ≤ (i a).val
      ∧ (i a).val < win1_2.index t a * S13200x14.size a + S13200x14.size a := by
  show i ∈ ((View.whole main_v49).slice (win1_2.rect t)).set ↔ _
  rw [View.set_slice_whole, Rect.mem_set_unit]
  exact Iff.rfl

/-- Every edge row lies in the block of the point e / 13200. -/
theorem cover1 (i : S3300000x14.Idx) :
    ∃ t : Fin cfg1.N, (cfg1.win 2).flush t = true ∧ i ∈ ((cfg1.win 2).blk t).view.set := by
  have hi0 : (i 0).val < 3300000 := (i 0).isLt
  have hi1 : (i 1).val < 14 := (i 1).isLt
  have hN : (i 0).val / 13200 < grid1.N := by rw [N_1]; omega
  obtain ⟨e0, e1, e2, e3, e4, e5⟩ := idx1_facts ⟨(i 0).val / 13200, hN⟩
  have e4' : win1_2.index ⟨(i 0).val / 13200, hN⟩ (0 : Fin 2) = (i 0).val / 13200 := e4
  refine ⟨⟨(i 0).val / 13200, hN⟩, flush1_2 _, ?_⟩
  rw [mem_blk1]
  intro a
  match a with
  | ⟨0, _⟩ => show win1_2.index ⟨(i 0).val / 13200, hN⟩ (0 : Fin 2) * 13200 ≤ (i 0).val ∧ (i 0).val < win1_2.index ⟨(i 0).val / 13200, hN⟩ (0 : Fin 2) * 13200 + 13200; omega
  | ⟨1, _⟩ => show win1_2.index ⟨(i 0).val / 13200, hN⟩ (1 : Fin 2) * 14 ≤ (i 1).val ∧ (i 1).val < win1_2.index ⟨(i 0).val / 13200, hN⟩ (1 : Fin 2) * 14 + 14; omega

/-- The region's output array, whole: every row of the gathered features scaled by its edge weight. -/
theorem final1 (c : Dev nD) :
    (dat1 (F := Ideal) V c).arrAt 2 cfg1.N = scaleRows (V c main_v48) (V c main_v30) :=
  (dat1 V c).arrAt_eq_of_cover 2 _ (fun t _ => flushed1_eq V c t) cover1

end Region1

end Cert.KernelIdeal.ScaleValue

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.LinearValue.lean ====
/-
  The linear kernel: over a grid of 25 points along the node axis it takes a 4000x14 block of node features, the
  whole 16x14 weight matrix and the 1x16 bias row, and stores x · Wᵀ + b for the block: a matrix product into a zero
  accumulator (the casts to a narrower float format are the identity on extended reals) plus the bias row broadcast
  down the 4000 rows. Read whole, its output array is
      out (r, q) = Σ_{k < 14} h (r, k) · Wᵀ (k, q) + b (0, q),
  one function of the three input arrays as the launch finds them: each point writes block t of it and the 25 blocks
  tile the 100000 rows.
-/
import proofs.«135742_j84086869721200_2_alg».proof.Proof.Gen.KernelIdeal.Frame
import proofs.«135742_j84086869721200_2_alg».proof.Proof.LibMatProd
import Idealize.ShloMosaic.Lib.Pipeline.Value
import Idealize.ShloMosaic.Lib.ValueIdx
import Idealize.ShloMosaic.PureOps.Ideal.Laws

set_option maxRecDepth 16384

noncomputable section

namespace Cert.KernelIdeal.LinearValue

open Cert.KernelIdeal Cert.KernelIdeal.Gen
open Idealize.ShloMosaic Idealize.ShloMosaic.TcCoe Idealize.SL.Sem
open Idealize.ShloMosaic.Pipeline (Dat)
open Cert.Gcn.Dense (prod sum_contr_eq_prod)

theorem hz : (![0, 0] : Fin 2 → Nat) = fun _ => 0 := funext fun a => by fin_cases a <;> rfl

/-- The bias entry added to entry (r, q) of the output: (0, q). -/
abbrev biasOf (i : S100000x16.Idx) : S1x16.Idx := fun a => match a with
  | ⟨0, _⟩ => ⟨0, Nat.one_pos⟩
  | ⟨1, _⟩ => ⟨(i 1).val, (i 1).isLt⟩

/-- The same inside a block. -/
abbrev blkBias (j : S4000x16.Idx) : S1x16.Idx := fun a => match a with
  | ⟨0, _⟩ => ⟨0, Nat.one_pos⟩
  | ⟨1, _⟩ => ⟨(j 1).val, (j 1).isLt⟩

/-- The transposed weight matrix. -/
abbrev wT (w : S16x14.Idx → EReal) : S14x16.Idx → EReal := transpose S14x16 [1, 0] w transposes_S16x14_p1_0_S14x16

/-- h · Wᵀ + b, index by index, over the whole 100000 rows. -/
def linearRows (h : S100000x14.Idx → EReal) (w : S16x14.Idx → EReal) (b : S1x16.Idx → EReal) : S100000x16.Idx → EReal :=
  fun i => prod (M := 100000) (K := 14) (N := 16) h (wT w) i + b (biasOf i)

/-! ## The matrix unit's dimension numbers: which coordinate each operand index takes from where -/

theorem lhs0 (i : S4000x16.Idx) (q : dot_S4000x14_S14x16_S4000x16_1_0_0_1_n_n.contr.Idx) :
    (dot_S4000x14_S14x16_S4000x16_1_0_0_1_n_n.lhsIdx i q 0).val = (i 0).val := by
  unfold DotDims.lhsIdx
  rw [dif_neg (show ¬(0 : Fin S4000x14.rank) ∈ dot_S4000x14_S14x16_S4000x16_1_0_0_1_n_n.lhsBatch by decide),
    dif_pos (show (0 : Fin S4000x14.rank) ∈ dot_S4000x14_S14x16_S4000x16_1_0_0_1_n_n.lhsNonContracting by decide)]
  rfl
theorem lhs1 (i : S4000x16.Idx) (q : dot_S4000x14_S14x16_S4000x16_1_0_0_1_n_n.contr.Idx) :
    (dot_S4000x14_S14x16_S4000x16_1_0_0_1_n_n.lhsIdx i q 1).val = (q ⟨0, by decide⟩).val :=
  dot_S4000x14_S14x16_S4000x16_1_0_0_1_n_n.lhsIdx_val_of_single rfl i q
theorem rhs0 (i : S4000x16.Idx) (q : dot_S4000x14_S14x16_S4000x16_1_0_0_1_n_n.contr.Idx) :
    (dot_S4000x14_S14x16_S4000x16_1_0_0_1_n_n.rhsIdx i q 0).val = (q ⟨0, by decide⟩).val :=
  dot_S4000x14_S14x16_S4000x16_1_0_0_1_n_n.rhsIdx_val_of_single rfl i q
theorem rhs1 (i : S4000x16.Idx) (q : dot_S4000x14_S14x16_S4000x16_1_0_0_1_n_n.contr.Idx) :
    (dot_S4000x14_S14x16_S4000x16_1_0_0_1_n_n.rhsIdx i q 1).val = (i 1).val := by
  unfold DotDims.rhsIdx
  rw [dif_neg (show ¬(1 : Fin S14x16.rank) ∈ dot_S4000x14_S14x16_S4000x16_1_0_0_1_n_n.rhsBatch by decide),
    dif_pos (show (1 : Fin S14x16.rank) ∈ dot_S4000x14_S14x16_S4000x16_1_0_0_1_n_n.rhsNonContracting by decide)]
  rfl

/-! ## The body's stored value at an index -/

/-- Entry (p, q) of the stored block: the product of the feature block with the transposed weights at (p, q), plus
    the bias entry (0, q). -/
theorem pay_apply (x0 : Vec Ideal S4000x14 .f32) (x1 : Vec Ideal S16x14 .f32) (x2 : Vec Ideal S1x16 .f32) (j : S4000x16.Idx) :
    k2_pay1 (F := Ideal) x0 x1 x2 j = prod (M := 4000) (K := 14) (N := 16) x0 (wT x1) j + x2 (blkBias j) := by
  unfold k2_pay1
  show FloatOps.matmul (F := Ideal) dot_S4000x14_S14x16_S4000x16_1_0_0_1_n_n none
        (truncf (F := Ideal) .bf16 (shapeCast S4000x14 x0 shapeCasts_S4000x14_S4000x14) bitsLt_bf16_f32)
        (transpose S14x16 [1, 0] (truncf (F := Ideal) .bf16 x1 bitsLt_bf16_f32) transposes_S16x14_p1_0_S14x16)
        (constant (F := Ideal) S4000x16 .f32 0x00000000#32) j
      + broadcastTo S4000x16 (shapeCast S1x16 x2 shapeCasts_S1x16_S1x16) broadcasts_S1x16_S4000x16 j = _
  rw [Ideal.matmul_constant_zero_apply, shapeCast_self, shapeCast_self]
  refine congrArg₂ (· + ·) ?_ ?_
  · show ∑ k : dot_S4000x14_S14x16_S4000x16_1_0_0_1_n_n.contr.Idx,
        x0 (dot_S4000x14_S14x16_S4000x16_1_0_0_1_n_n.lhsIdx j k) * wT x1 (dot_S4000x14_S14x16_S4000x16_1_0_0_1_n_n.rhsIdx j k) = _
    exact sum_contr_eq_prod dot_S4000x14_S14x16_S4000x16_1_0_0_1_n_n rfl rfl lhs0 lhs1 rhs0 rhs1 x0 (wT x1) j
  · refine broadcastTo_apply x2 broadcasts_S1x16_S4000x16 j (blkBias j) fun a => ?_
    match a with
    | ⟨0, _⟩ => show 0 = if (1 : Nat) = 1 then 0 else (j 0).val; rw [if_pos rfl]
    | ⟨1, _⟩ => show (j 1).val = if (16 : Nat) = 1 then 0 else (j 1).val; rw [if_neg (by decide)]

/-! ## From blocks to the array -/

section Region
variable (V : (c : Dev nD) → (b : Ref sig .tc) → Buf (Elt Ideal) ((c : Thread nD τ).loc b))

/-- Over the grid: the feature window and the output window move together along the node axis, block t at block
    index t; the weight and bias windows stay at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The weight window's block is the whole weight matrix, at every point. -/
theorem wblk_eq (c : Dev nD) (t : Fin cfg2.N) :
    (iblk2 V c 1 t : S16x14.Idx → EReal) = (V c main_arg2 : S16x14.Idx → EReal) := by
  obtain ⟨e0, e1, e2, e3, e4, e5, e6, e7⟩ := idx_facts t
  funext y
  show V c main_arg2 (((cfg2.win 1).blk t).view.emb y) = V c main_arg2 y
  refine congrArg (V c main_arg2) (funext fun a => Fin.ext ?_)
  match a with
  | ⟨0, _⟩ => show win2_1.index t (0 : Fin 2) * 16 + 1 * (y 0).val = (y 0).val; omega
  | ⟨1, _⟩ => show win2_1.index t (1 : Fin 2) * 14 + 1 * (y 1).val = (y 1).val; omega

/-- The bias window's block is the whole bias row, at every point. -/
theorem bblk_eq (c : Dev nD) (t : Fin cfg2.N) :
    (iblk2 V c 2 t : S1x16.Idx → EReal) = (V c main_v53 : S1x16.Idx → EReal) := by
  obtain ⟨e0, e1, e2, e3, e4, e5, e6, e7⟩ := idx_facts t
  funext y
  show V c main_v53 (((cfg2.win 2).blk t).view.emb y) = V c main_v53 y
  refine congrArg (V c main_v53) (funext fun a => Fin.ext ?_)
  match a with
  | ⟨0, _⟩ => show win2_2.index t (0 : Fin 2) * 1 + 1 * (y 0).val = (y 0).val; omega
  | ⟨1, _⟩ => show win2_2.index t (1 : Fin 2) * 16 + 1 * (y 1).val = (y 1).val; omega

/-- What point t writes back is block t of h · Wᵀ + b of the three arrays as the launch finds them. -/
theorem flushed_eq (c : Dev nD) (t : Fin cfg2.N) :
    (dat2 (F := Ideal) V c).flushed 3 t
      = ((cfg2.win 3).blk t).view.read (Elt Ideal) (linearRows (V c main_v52) (V c main_arg2) (V c main_v53)) := by
  show (cfg2.win 3).cut (grid2.coords t) ((dat2 V c).after 3 t) = _
  rw [after2_3]
  unfold out2_3
  rw [View.canon_unit_zero hz]
  simp only [View.ld_unit_zero (S := S4000x14) hz, View.ld_unit_zero (S := S16x14) hz, View.ld_unit_zero (S := S1x16) hz]
  obtain ⟨e0, e1, e2, e3, e4, e5, e6, e7⟩ := idx_facts t
  funext j
  show k2_pay1 (iblk2 V c 0 t) (iblk2 V c 1 t) (iblk2 V c 2 t) j
      = linearRows (V c main_v52) (V c main_arg2) (V c main_v53) (((cfg2.win 3).blk t).view.emb j)
  refine (pay_apply _ _ _ j).trans ?_
  rw [wblk_eq V c t, bblk_eq V c t]
  unfold linearRows prod
  refine congrArg₂ (· + ·) (Finset.sum_congr rfl fun k _ => ?_) ?_
  · refine congrArg₂ (· * ·) ?_ ?_
    · show V c main_v52 (((cfg2.win 0).blk t).view.emb (ValueIdx.ix2 (j 0) k))
          = V c main_v52 (ValueIdx.ix2 ((((cfg2.win 3).blk t).view.emb j) 0) k)
      refine congrArg (V c main_v52) (funext fun a => Fin.ext ?_)
      match a with
      | ⟨0, _⟩ => show win2_0.index t (0 : Fin 2) * 4000 + 1 * (j 0).val = win2_3.index t (0 : Fin 2) * 4000 + 1 * (j 0).val; omega
      | ⟨1, _⟩ => show win2_0.index t (1 : Fin 2) * 14 + 1 * k.val = k.val; omega
    · refine congrArg (wT (V c main_arg2)) (funext fun a => Fin.ext ?_)
      match a with
      | ⟨0, _⟩ => rfl
      | ⟨1, _⟩ => show (j 1).val = win2_3.index t (1 : Fin 2) * 16 + 1 * (j 1).val; omega
  · refine congrArg (V c main_v53) (funext fun a => Fin.ext ?_)
    match a with
    | ⟨0, _⟩ => rfl
    | ⟨1, _⟩ => show (j 1).val = win2_3.index t (1 : Fin 2) * 16 + 1 * (j 1).val; omega

/-- An index of the array is in point t's block iff each coordinate is in the block's range on its axis. -/
theorem mem_blk (t : Fin cfg2.N) (i : S100000x16.Idx) :
    i ∈ ((cfg2.win 3).blk t).view.set ↔ ∀ a : Fin 2, win2_3.index t a * S4000x16.size a ≤ (i a).val
      ∧ (i a).val < win2_3.index t a * S4000x16.size a + S4000x16.size a := by
  show i ∈ ((View.whole main_v54).slice (win2_3.rect t)).set ↔ _
  rw [View.set_slice_whole, Rect.mem_set_unit]
  exact Iff.rfl

/-- Every node row lies in the block of the point r / 4000. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : (i 0).val / 4000 < grid2.N := by rw [N_2]; omega
  obtain ⟨e0, e1, e2, e3, e4, e5, e6, e7⟩ := idx_facts ⟨(i 0).val / 4000, hN⟩
  have e6' : win2_3.index ⟨(i 0).val / 4000, hN⟩ (0 : Fin 2) = (i 0).val / 4000 := e6
  refine ⟨⟨(i 0).val / 4000, hN⟩, flush2_3 _, ?_⟩
  rw [mem_blk]
  intro a
  match a with
  | ⟨0, _⟩ => show win2_3.index ⟨(i 0).val / 4000, hN⟩ (0 : Fin 2) * 4000 ≤ (i 0).val ∧ (i 0).val < win2_3.index ⟨(i 0).val / 4000, hN⟩ (0 : Fin 2) * 4000 + 4000; omega
  | ⟨1, _⟩ => show win2_3.index ⟨(i 0).val / 4000, hN⟩ (1 : Fin 2) * 16 ≤ (i 1).val ∧ (i 1).val < win2_3.index ⟨(i 0).val / 4000, hN⟩ (1 : Fin 2) * 16 + 16; omega

/-- The launch's output array, whole: h · Wᵀ + b of the arrays the launch finds. -/
theorem final (c : Dev nD) :
    (dat2 (F := Ideal) V c).arrAt 3 cfg2.N = linearRows (V c main_v52) (V c main_arg2) (V c main_v53) :=
  (dat2 V c).arrAt_eq_of_cover 3 _ (fun t _ => flushed_eq V c t) cover

end Region

end Cert.KernelIdeal.LinearValue

end
-- ==== Proof.KernelFold.lean ====
/-
  The idealized kernel program, boundary by boundary, against the reference's stages. Both programs compute, from the
  node features x, the edge list, the weights W and the bias b: the edge endpoints with self loops appended (row, col),
  the degree of every node, the edge weights norm = dinv[row] · dinv[col], two propagation hops
      x ← segment_sum (norm · x[row], col),
  and x · Wᵀ + b. The host operations are the same on both sides; the kernel program replaces, in each hop, the
  host's product (norm broadcast along the features) · x[row] by a launch computing x[row] · (norm as a column) —
  equal because multiplication of extended reals commutes — and the final contraction and bias by a launch computing
  the same sums. So each buffer the next stretch reads holds, at every boundary, the reference's stage of the arguments.
-/
import proofs.«135742_j84086869721200_2_alg».proof.Proof.Gen.KernelIdeal.Frame
import proofs.«135742_j84086869721200_2_alg».proof.Proof.RefRead
import proofs.«135742_j84086869721200_2_alg».proof.Proof.ScaleValue
import proofs.«135742_j84086869721200_2_alg».proof.Proof.LinearValue
import Idealize.ShloMosaic.Lib.StableHlo.Run
import Idealize.ShloMosaic.Lib.Pipeline.Value
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v12 val_main_v13 val_main_v14 val_main_v29 val_main_v30 val_main_v30_apply val_main_v37 val_main_v38 val_main_v38_apply
  val_main_v39 val_main_v39_apply val_main_v42 val_main_v43 val_main_v43_apply val_main_v50 val_main_v51 val_main_v51_apply
  val_main_v52 val_main_v52_apply val_main_v55 val_main_v56 val_main_v57 val_main_v58 val_main_v58_apply val_main_v59
  val_main_v59_apply val_main_v60 idx_main_v30 idx_main_v38 idx_main_v43 idx_main_v51 idx_main_v58 idx_main_v59
  lhs_main_v57_0 lhs_main_v57_1 rhs_main_v57_0 rhs_main_v57_1)
open Cert.KernelIdeal.ScaleValue (scaleRows colOf)
open Cert.KernelIdeal.LinearValue (linearRows biasOf wT)
open Cert.Gcn.Dense (prod sum_contr_eq_prod)

/-! ## The two laws joining the sides -/

/-- The edge whose weight scales entry (e, f): e. -/
abbrev rowOf (i : S3300000x14.Idx) : S3300000.Idx := fun a => match a with
  | ⟨0, _⟩ => ⟨(i 0).val, (i 0).isLt⟩

/-- Scaling row e by entry (e, 0) of the weight vector laid out as a column is multiplying by weight e. -/
theorem scale_apply (a : S3300000x14.Idx → EReal) (n : S3300000.Idx → EReal) (i : S3300000x14.Idx) :
    scaleRows a (shapeCast S3300000x1 n shapeCasts_S3300000_S3300000x1) i = n (rowOf i) * a i := by
  unfold scaleRows
  rw [mul_comm]
  refine congrArg (· * a i) (shapeCast_apply n shapeCasts_S3300000_S3300000x1 (colOf i) (rowOf i) ?_)
  rw [Shape.rowMajor_val_one, Shape.rowMajor_val_two]
  show (i 0).val = (i 0).val * 1 + 0
  omega

/-- Hop 1: the launch's rows-times-weights is the reference's weights-times-rows. -/
theorem scale_eq1 (x0 : S100000x14.Idx → EReal) (x1 : S2x3200000.Idx → BitVec 32) :
    scaleRows (val_main_v37 (F := Ideal) x0 x1) (shapeCast S3300000x1 (val_main_v29 (F := Ideal) x1) shapeCasts_S3300000_S3300000x1)
      = val_main_v39 (F := Ideal) x0 x1 := funext fun i => by
  rw [scale_apply, val_main_v39_apply, val_main_v38_apply, val_main_v30_apply]
  refine congrArg (fun k => val_main_v29 (F := Ideal) x1 k * val_main_v37 (F := Ideal) x0 x1 i) (funext fun a => ?_)
  match a with
  | ⟨0, _⟩ => rfl

/-- Hop 2, the same. -/
theorem scale_eq2 (x0 : S100000x14.Idx → EReal) (x1 : S2x3200000.Idx → BitVec 32) :
    scaleRows (val_main_v50 (F := Ideal) x0 x1) (shapeCast S3300000x1 (val_main_v29 (F := Ideal) x1) shapeCasts_S3300000_S3300000x1)
      = val_main_v52 (F := Ideal) x0 x1 := funext fun i => by
  rw [scale_apply, val_main_v52_apply, val_main_v51_apply, val_main_v43_apply]
  refine congrArg (fun k => val_main_v29 (F := Ideal) x1 k * val_main_v50 (F := Ideal) x0 x1 i) (funext fun a => ?_)
  match a with
  | ⟨0, _⟩ => rfl

/-- The launch's h · Wᵀ + b is the reference's contraction plus the broadcast bias. -/
theorem linear_eq (h : S100000x14.Idx → EReal) (x2 : S16x14.Idx → EReal) (x3 : S16.Idx → EReal) :
    linearRows h x2 (shapeCast S1x16 x3 shapeCasts_S16_S1x16)
      = addf (F := Ideal) (Host.dotGeneral (F := Ideal) (φ₁ := .f32) (φ₂ := .f32) Cert.ReferenceIdeal.dot_S100000x14_S14x16_S100000x16_1_0_0_1_n_n none h
          (val_main_v56 (F := Ideal) x2)) (val_main_v59 (F := Ideal) x3) := funext fun i => by
  unfold linearRows
  show prod (M := 100000) (K := 14) (N := 16) h (wT x2) i + shapeCast S1x16 x3 shapeCasts_S16_S1x16 (biasOf i)
      = Host.dotGeneral (F := Ideal) (φ₁ := .f32) (φ₂ := .f32) Cert.ReferenceIdeal.dot_S100000x14_S14x16_S100000x16_1_0_0_1_n_n none h (val_main_v56 (F := Ideal) x2) i
        + val_main_v59 (F := Ideal) x3 i
  refine congrArg₂ (· + ·) ?_ ?_
  · symm
    simp only [Host.dotGeneral]
    rw [Ideal.dotGeneral_apply]
    exact sum_contr_eq_prod Cert.ReferenceIdeal.dot_S100000x14_S14x16_S100000x16_1_0_0_1_n_n rfl rfl
      lhs_main_v57_0 lhs_main_v57_1 rhs_main_v57_0 rhs_main_v57_1 h (val_main_v56 (F := Ideal) x2) i
  · rw [val_main_v59_apply, val_main_v58_apply]
    refine shapeCast_apply x3 shapeCasts_S16_S1x16 (biasOf i) (idx_main_v58 (idx_main_v59 i)) ?_
    rw [Shape.rowMajor_val_one, Shape.rowMajor_val_two]
    show (i 1).val = 0 * 16 + (i 1).val
    omega

/-- A select of equal operands. -/
theorem select_congr {s : Shape} {α : Type} {p p' : IVec s 1} {a a' b b' : s.Idx → α}
    (hp : p = p') (ha : a = a') (hb : b = b') : select p a b = select p' a' b' := by
  rw [hp, ha, hb]

/-! ## The buffers at each boundary -/

section Fold
variable (m : (ℓ : Loc nD τ sig) → Buf (Elt Ideal) ℓ) (ρ : Dev nD → PrngReg) (c : Dev nD)

/-! ### Entering the first launch -/

theorem W3_v3 : W3 m ρ c (Proc.devRef .tc main_v3) = val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results_simp <;> rfl
theorem W3_v6 : W3 m ρ c (Proc.devRef .tc main_v6) = val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results_simp <;> rfl
/-- After the first stretch: the degree test and the inverse square root of the degrees. -/
theorem W1_v12 : W1 m ρ c (Proc.devRef .tc main_v12) = val_main_v12 (F := Ideal) (m ((c.tc : Thread nD τ).loc main_arg1)) := by
  show StableHlo.after hostOps0 (W0 m ρ c) (Proc.devRef .tc main_v12) = _
  after_results_simp <;> rfl
theorem W1_v13 : W1 m ρ c (Proc.devRef .tc main_v13) = val_main_v13 (F := Ideal) (m ((c.tc : Thread nD τ).loc main_arg1)) := by
  show StableHlo.after hostOps0 (W0 m ρ c) (Proc.devRef .tc main_v13) = _
  after_results_simp <;> rfl
theorem W1_v3 : W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl
theorem W1_v6 : W1 m ρ c (Proc.devRef .tc main_v6) = val_main_v6 (F := Ideal) (m ((c.tc : Thread nD τ).loc main_arg1)) := by
  show StableHlo.after hostOps0 (W0 m ρ c) (Proc.devRef .tc main_v6) = _
  after_results_simp <;> rfl
theorem W1_cst_2 : W1 m ρ c (Proc.devRef .tc main_cst_2) = constant (F := Ideal) S_ .f32 0x00000000#32 := by
  show StableHlo.after hostOps0 (W0 m ρ c) (Proc.devRef .tc main_cst_2) = _
  after_results_simp <;> rfl

/-- After the second stretch: dinv, the inverse square root where the degree is positive and 0 elsewhere. -/
theorem W2_v14 : W2 m ρ c (Proc.devRef .tc main_v14) = val_main_v14 (F := Ideal) (m ((c.tc : Thread nD τ).loc main_arg1)) := by
  have e12 := W1_v12 m ρ c
  have e13 := W1_v13 m ρ c
  have e2 := W1_cst_2 m ρ c
  show StableHlo.after hostOps0_1 (W1 m ρ c) (Proc.devRef .tc main_v14) = _
  generalize W1 m ρ c = V at e12 e13 e2 ⊢
  after_results_simp
  rw [e12, e13, e2]
  -- dinv = where (deg > 0, rsqrt deg, 0): its three operands are the stages already identified
  refine (cast_eq _ _).trans ?_
  unfold val_main_v14
  refine select_congr (cast_eq _ _) (cast_eq _ _) ?_
  refine (cast_eq _ _).trans ((cast_eq _ _).trans ?_)
  exact congrArg (fun y : S_.Idx → EReal => broadcastInDim S100000 (![] : Fin S_.rank → Fin S100000.rank) bcast_S_S100000 y)
    ((cast_eq _ _).trans ((cast_eq _ _).trans (congrArg id (cast_eq _ _))))
theorem W2_v3 : W2 m ρ c (Proc.devRef .tc main_v3) = val_main_v3 (F := Ideal) (m ((c.tc : Thread nD τ).loc main_arg1)) := by
  have e := W1_v3 m ρ c
  show StableHlo.after hostOps0_1 (W1 m ρ c) (Proc.devRef .tc main_v3) = _
  generalize W1 m ρ c = V at e ⊢
  after_results_simp
  exact e
theorem W2_v6 : W2 m ρ c (Proc.devRef .tc main_v6) = val_main_v6 (F := Ideal) (m ((c.tc : Thread nD τ).loc main_arg1)) := by
  have e := W1_v6 m ρ c
  show StableHlo.after hostOps0_1 (W1 m ρ c) (Proc.devRef .tc main_v6) = _
  generalize W1 m ρ c = V at e ⊢
  after_results_simp
  exact e

/-- Entering the first launch, the edge weights dinv[row] · dinv[col], laid out as a column. -/
theorem W3_v30 : W3 m ρ c (Proc.devRef .tc main_v30)
    = shapeCast S3300000x1 (val_main_v29 (F := Ideal) (m ((c.tc : Thread nD τ).loc main_arg1))) shapeCasts_S3300000_S3300000x1 := by
  have e14 := W2_v14 m ρ c
  have e3 := W2_v3 m ρ c
  have e6 := W2_v6 m ρ c
  show StableHlo.after hostOps0_2 (W2 m ρ c) (Proc.devRef .tc main_v30) = _
  generalize W2 m ρ c = V at e14 e3 e6 ⊢
  after_results_simp
  rw [e14, e3, e6]
  rfl
theorem W3_v37 : W3 m ρ c (Proc.devRef .tc main_v37) = val_main_v37 (F := Ideal) (m ((c.tc : Thread nD τ).loc main_arg0)) (m ((c.tc : Thread nD τ).loc main_arg1)) := by
  show StableHlo.after hostOps0_2 (StableHlo.after hostOps0_1 (StableHlo.after hostOps0 (W0 m ρ c))) (Proc.devRef .tc main_v37) = _
  after_results_simp <;> rfl
theorem W3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp <;> rfl

/-! ### Leaving the first launch -/

theorem W4_v3 : W4 m ρ c (Proc.devRef .tc main_v3) = val_main_v3 (F := Ideal) (m ((c.tc : Thread nD τ).loc main_arg1)) :=
  (W4_of_ne m ρ c main_v3 (by decide)).trans (W3_v3 m ρ c)
theorem W4_v6 : W4 m ρ c (Proc.devRef .tc main_v6) = val_main_v6 (F := Ideal) (m ((c.tc : Thread nD τ).loc main_arg1)) :=
  (W4_of_ne m ρ c main_v6 (by decide)).trans (W3_v6 m ρ c)
theorem W4_v30 : W4 m ρ c (Proc.devRef .tc main_v30)
    = shapeCast S3300000x1 (val_main_v29 (F := Ideal) (m ((c.tc : Thread nD τ).loc main_arg1))) shapeCasts_S3300000_S3300000x1 :=
  (W4_arr m ρ c 1).trans (((dat0 (V3 m ρ) c).arrAt_in 1 rfl cfg0.N).trans ((A_eq0 (V3 m ρ) c 1).trans (W3_v30 m ρ c)))
theorem W4_arg2 : W4 m ρ c (Proc.devRef .tc main_arg2) = (m ((c.tc : Thread nD τ).loc main_arg2)) :=
  (W4_of_ne m ρ c main_arg2 (by decide)).trans (W3_arg2 m ρ c)
theorem W4_arg3 : W4 m ρ c (Proc.devRef .tc main_arg3) = (m ((c.tc : Thread nD τ).loc main_arg3)) :=
  (W4_of_ne m ρ c main_arg3 (by decide)).trans (W3_arg3 m ρ c)
theorem W4_v38 : W4 m ρ c (Proc.devRef .tc main_v38) = val_main_v39 (F := Ideal) (m ((c.tc : Thread nD τ).loc main_arg0)) (m ((c.tc : Thread nD τ).loc main_arg1)) := by
  refine (W4_arr m ρ c 2).trans ?_
  rw [ScaleValue.final0 (V3 m ρ) c]
  show scaleRows (W3 m ρ c (Proc.devRef .tc main_v37)) (W3 m ρ c (Proc.devRef .tc main_v30)) = _
  rw [W3_v37 m ρ c, W3_v30 m ρ c]
  exact scale_eq1 _ _

/-! ### Entering the second launch -/

theorem W5_v48 : W5 m ρ c (Proc.devRef .tc main_v48) = val_main_v50 (F := Ideal) (m ((c.tc : Thread nD τ).loc main_arg0)) (m ((c.tc : Thread nD τ).loc main_arg1)) := by
  show StableHlo.after hostOps1 (W4 m ρ c) (Proc.devRef .tc main_v48) = _
  after_results_simp
  rw [W4_v3 m ρ c, W4_v6 m ρ c, W4_v38 m ρ c]
  rfl
theorem W5_v30 : W5 m ρ c (Proc.devRef .tc main_v30)
    = shapeCast S3300000x1 (val_main_v29 (F := Ideal) (m ((c.tc : Thread nD τ).loc main_arg1))) shapeCasts_S3300000_S3300000x1 := by
  show StableHlo.after hostOps1 (W4 m ρ c) (Proc.devRef .tc main_v30) = _
  after_results_simp
  exact W4_v30 m ρ c
theorem W5_v6 : W5 m ρ c (Proc.devRef .tc main_v6) = val_main_v6 (F := Ideal) (m ((c.tc : Thread nD τ).loc main_arg1)) := by
  show StableHlo.after hostOps1 (W4 m ρ c) (Proc.devRef .tc main_v6) = _
  after_results_simp
  exact W4_v6 m ρ c
theorem W5_arg2 : W5 m ρ c (Proc.devRef .tc main_arg2) = (m ((c.tc : Thread nD τ).loc main_arg2)) := by
  show StableHlo.after hostOps1 (W4 m ρ c) (Proc.devRef .tc main_arg2) = _
  after_results_simp
  exact W4_arg2 m ρ c
theorem W5_arg3 : W5 m ρ c (Proc.devRef .tc main_arg3) = (m ((c.tc : Thread nD τ).loc main_arg3)) := by
  show StableHlo.after hostOps1 (W4 m ρ c) (Proc.devRef .tc main_arg3) = _
  after_results_simp
  exact W4_arg3 m ρ c

/-! ### Leaving the second launch -/

theorem W6_v6 : W6 m ρ c (Proc.devRef .tc main_v6) = val_main_v6 (F := Ideal) (m ((c.tc : Thread nD τ).loc main_arg1)) :=
  (W6_of_ne m ρ c main_v6 (by decide)).trans (W5_v6 m ρ c)
theorem W6_arg2 : W6 m ρ c (Proc.devRef .tc main_arg2) = (m ((c.tc : Thread nD τ).loc main_arg2)) :=
  (W6_of_ne m ρ c main_arg2 (by decide)).trans (W5_arg2 m ρ c)
theorem W6_arg3 : W6 m ρ c (Proc.devRef .tc main_arg3) = (m ((c.tc : Thread nD τ).loc main_arg3)) :=
  (W6_of_ne m ρ c main_arg3 (by decide)).trans (W5_arg3 m ρ c)
theorem W6_v49 : W6 m ρ c (Proc.devRef .tc main_v49) = val_main_v52 (F := Ideal) (m ((c.tc : Thread nD τ).loc main_arg0)) (m ((c.tc : Thread nD τ).loc main_arg1)) := by
  refine (W6_arr m ρ c 2).trans ?_
  rw [ScaleValue.final1 (V5 m ρ) c]
  show scaleRows (W5 m ρ c (Proc.devRef .tc main_v48)) (W5 m ρ c (Proc.devRef .tc main_v30)) = _
  rw [W5_v48 m ρ c, W5_v30 m ρ c]
  exact scale_eq2 _ _

/-! ### Entering the third launch -/

theorem W7_v52 : W7 m ρ c (Proc.devRef .tc main_v52) = val_main_v55 (F := Ideal) (m ((c.tc : Thread nD τ).loc main_arg0)) (m ((c.tc : Thread nD τ).loc main_arg1)) := by
  show StableHlo.after hostOps2 (W6 m ρ c) (Proc.devRef .tc main_v52) = _
  after_results_simp
  rw [W6_v6 m ρ c, W6_v49 m ρ c]
  rfl
theorem W7_v53 : W7 m ρ c (Proc.devRef .tc main_v53) = shapeCast S1x16 (m ((c.tc : Thread nD τ).loc main_arg3)) shapeCasts_S16_S1x16 := by
  show StableHlo.after hostOps2 (W6 m ρ c) (Proc.devRef .tc main_v53) = _
  after_results_simp
  rw [W6_arg3 m ρ c]
  rfl
theorem W7_arg2 : W7 m ρ c (Proc.devRef .tc main_arg2) = (m ((c.tc : Thread nD τ).loc main_arg2)) := by
  show StableHlo.after hostOps2 (W6 m ρ c) (Proc.devRef .tc main_arg2) = _
  after_results_simp
  exact W6_arg2 m ρ c

/-! ### The result -/

/-- After the third launch the result buffer holds the reference's result stage of the four arguments. -/
theorem W8_v54 : W8 m ρ c (Proc.devRef .tc main_v54) = val_main_v60 (F := Ideal) (m ((c.tc : Thread nD τ).loc main_arg0)) (m ((c.tc : Thread nD τ).loc main_arg1)) (m ((c.tc : Thread nD τ).loc main_arg2)) (m ((c.tc : Thread nD τ).loc main_arg3)) := by
  refine (W8_arr m ρ c 3).trans ?_
  rw [LinearValue.final (V7 m ρ) c]
  show linearRows (W7 m ρ c (Proc.devRef .tc main_v52)) (W7 m ρ c (Proc.devRef .tc main_arg2)) (W7 m ρ c (Proc.devRef .tc main_v53)) = _
  rw [W7_v52 m ρ c, W7_arg2 m ρ c, W7_v53 m ρ c]
  exact (linear_eq _ _ _).trans rfl

end Fold

end Cert.KernelIdeal.Fold

end
-- ==== Proof.lean ====
/-
  A two-hop simplified graph convolution followed by a linear layer: from node features x, an edge list, weights W and
  bias b, append a self loop to every node, weight edge (r, c) by norm = dinv[r] · dinv[c] with dinv = deg^(-1/2)
  (0 where the degree is 0), apply  x ← segment_sum (norm · x[row], col)  twice, and return x · Wᵀ + b.

  The kernel program keeps the gathers and the segment sums on the host and runs three launches: two that scale the
  gathered rows by the edge weights, 13200 edges per grid point, and one that forms x · Wᵀ + b, 4000 nodes per grid
  point. Over the extended reals the scaled rows are the reference's product with the factors swapped, and the third
  launch's matrix product into a zero accumulator plus the broadcast bias row is the reference's contraction plus
  bias, sum by sum; every other operation is the same on both sides. No finiteness of the inputs is used.

  ScaleValue and LinearValue read each launch's output array as one function of its input arrays; KernelRun reads the
  whole final memory of the kernel program's run; KernelFold follows the buffers from boundary to boundary against
  the reference's stages; here the three frames, the (empty) idealization ledger and the equivalence are assembled.
-/
import proofs.«135742_j84086869721200_2_alg».proof.Defs
import proofs.«135742_j84086869721200_2_alg».proof.Proof.Gen.Kernel
import proofs.«135742_j84086869721200_2_alg».proof.Proof.Gen.Kernel.Frame
import proofs.«135742_j84086869721200_2_alg».proof.Proof.Gen.KernelIdeal
import proofs.«135742_j84086869721200_2_alg».proof.Proof.Gen.KernelIdeal.Frame
import proofs.«135742_j84086869721200_2_alg».proof.Proof.Gen.ReferenceIdeal
import proofs.«135742_j84086869721200_2_alg».proof.Proof.Gen.Pre_finite_inputs
import proofs.«135742_j84086869721200_2_alg».proof.Proof.RefRun
import proofs.«135742_j84086869721200_2_alg».proof.Proof.RefRead
import proofs.«135742_j84086869721200_2_alg».proof.Proof.KernelRun
import proofs.«135742_j84086869721200_2_alg».proof.Proof.KernelFold
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the four arguments both programs end with the result buffer at the reference's result
    stage of those arguments: the kernel program by following its buffers through the three launches, the reference
    by its run. -/
theorem algebraic : Cert.algebraic_KernelIdeal_ReferenceIdeal := by
  intro m ρ m' ρ' _ hagree
  refine ⟨fun c => Cert.ReferenceIdeal.ReadP.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.W8_v54 m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v60_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
